-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x40 : Shape := ⟨2, ![128, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x40 : Shape := ⟨2, ![128, 40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S100000x40 : Shape := ⟨2, ![100000, 40]⟩
abbrev S5000x40 : Shape := ⟨2, ![5000, 40]⟩
abbrev S1700000x40 : Shape := ⟨2, ![1700000, 40]⟩
abbrev S5000 : Shape := ⟨1, ![5000]⟩
abbrev S5000x1 : Shape := ⟨2, ![5000, 1]⟩

abbrev nBuf : Space → Nat
  | .hbm => 89
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128x40, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x128, .f32⟩
  | .hbm, ⟨55, _⟩ => ⟨S1700000x1, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S100000x40, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x40, .f32⟩
  | .hbm, ⟨82, _⟩ => ⟨S1700000x40, .f32⟩
  | .hbm, ⟨83, _⟩ => ⟨S1700000x40, .f32⟩
  | .hbm, ⟨84, _⟩ => ⟨S_, .f32⟩
  | .hbm, ⟨85, _⟩ => ⟨S100000x40, .f32⟩
  | .hbm, ⟨86, _⟩ => ⟨S1700000x1, .i32⟩
  | .hbm, ⟨87, _⟩ => ⟨S100000x40, .f32⟩
  | .hbm, ⟨88, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x40 : Shape := ⟨2, ![128, 40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x40 : Shape := ⟨2, ![100000, 40]⟩
abbrev S1700000x40 : Shape := ⟨2, ![1700000, 40]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128x40, .f32⟩
  | 5 => ⟨S100000, .i32⟩
  | 6 => ⟨S1x1600000, .i32⟩
  | 7 => ⟨S1600000, .i32⟩
  | 8 => ⟨S1700000, .i32⟩
  | 9 => ⟨S1x1600000, .i32⟩
  | 10 => ⟨S1600000, .i32⟩
  | 11 => ⟨S1700000, .i32⟩
  | 12 => ⟨S_, .f32⟩
  | 13 => ⟨S100000, .f32⟩
  | 14 => ⟨S1700000, .f32⟩
  | 15 => ⟨S100000x128, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S_, .f32⟩
  | 65 => ⟨S100000x128, .f32⟩
  | 66 => ⟨S100000x128, .f32⟩
  | 67 => ⟨S100000x40, .f32⟩
  | 68 => ⟨S_, .f32⟩
  | 69 => ⟨S100000, .f32⟩
  | 70 => ⟨S1700000x1, .i32⟩
  | 71 => ⟨S100000, .f32⟩
  | 72 => ⟨S_, .f32⟩
  | 73 => ⟨S100000, .f32⟩
  | 74 => ⟨S100000, .i1⟩
  | 75 => ⟨S100000, .f32⟩
  | 76 => ⟨S_, .f32⟩
  | 77 => ⟨S_, .f32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x40, .f32⟩
  | 110 => ⟨S1700000x40, .f32⟩
  | 111 => ⟨S1700000x40, .f32⟩
  | 112 => ⟨S_, .f32⟩
  | 113 => ⟨S100000x40, .f32⟩
  | 114 => ⟨S1700000x1, .i32⟩
  | 115 => ⟨S100000x40, .f32⟩
  | 116 => ⟨S_, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x40, .f32⟩
  | 123 => ⟨S100000x40, .f32⟩
  | 124 => ⟨S100000x40, .f32⟩
  | 125 => ⟨S_, .f32⟩
  | 126 => ⟨S100000, .f32⟩
  | 127 => ⟨S100000x1, .f32⟩
  | _ => ⟨S100000x128, .f32⟩

abbrev hbmTy0_1 (i : Nat) : BufTy := match i % 128 with
  | 0 => ⟨S100000x1, .f32⟩
  | 1 => ⟨S100000x40, .f32⟩
  | 2 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call1_cst : Ref sig .tc := ⟨.hbm, 64, rfl⟩
abbrev main_call1_v0 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_call2_v0 : Ref sig .tc := ⟨.hbm, 77, rfl⟩
abbrev main_call2_v1 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_call3_cst_0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_cst_1 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  Where the idealized kernel program ends.

  The program is ten segments in a row: five stretches of host operations, the first matrix product's launch, a stretch,
  the second product's launch, a stretch, and the row-wise log-softmax launch. Each segment takes the buffers the
  TensorCore holds at one boundary to the next boundary's contents; the contents at the last boundary are a fold through
  all ten. This module states the one fact the value proof needs from that chain: from any launch memory, every weakly
  fair execution terminates, nothing faults, and EVERY buffer that outlives the launches (arguments, intermediate
  tensors, the result) ends at the last boundary's contents.
-/
import proofs.«134297_j80453327389046_2_alg».proof.Proof.Gen.KernelIdeal.Frame

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each buffer that is
    not a launch's staging storage holds the contents of the last boundary. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the staging cells' initial element; no other ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      -- per core: the launch memory's buffers are the first boundary's, the generator register and the empty debt ride along
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      -- the last thread state holds every such buffer whole at the last boundary's contents: read them off the final state
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result buffer in a final state, read off `ends`. -/
theorem result_of_ends {s : MemSt nD τ sig (Elt F)}
    (h : ∀ c : Dev nD, ∀ b ∈ Pipeline.ucRefs τ sig, s.mem (((c : Thread nD τ)).1, b) = W10 m ρ c b) (c : Dev nD) :
    s.mem ((c.tc : Thread nD τ).loc main_v63) = W10 m ρ c (Proc.devRef .tc main_v63) :=
  h c _ (mem_uc main_v63 (by decide))

end Cert.KernelIdeal.Ends

end
-- ==== Proof.Gcn.lean ====
/-
  The irregular part of a graph-convolution layer, as pure functions of arrays.

  Both programs extend the edge list by one self-loop per node (the rows, the columns, and a weight 1 for every
  loop), sum the weights that land on each node (its degree), take d^(−1/2) where the degree is positive and 0 elsewhere,
  give every edge the weight dinv[row] · w · dinv[col], and aggregate a feature matrix: gather the column node's feature
  row for every edge, scale it by the edge's weight, and scatter-add it into the row node's row. A negative index wraps
  around by the number of nodes before it is used. These are the same host operations in both programs; here each gets
  a name, so that what a stretch of either program computes can be said in one line.
-/
import proofs.«134297_j80453327389046_2_alg».proof.Proof.Gen.KernelIdeal
import Idealize.ShloMosaic.PureOps.Ideal
import Idealize.ShloMosaic.Lib.ValueIdx

noncomputable section

namespace Cert.Gcn

open Idealize.ShloMosaic
open Cert.KernelIdeal
open Cert.KernelIdeal.Gen (slices_S2x1600000_S1x1600000_0_0 slices_S2x1600000_S1x1600000_1_0 shapeCasts_S1x1600000_S1600000
  concatenates_S1600000_S100000_S1700000_d0 bcast_S_S100000 bcast_S1700000_S1700000x1_0 bcast_S_S1700000
  bcast_S1700000x1_S1700000x128_0_1 bcast_S_S100000x128 bcast_S1700000x1_S1700000x40_0_1 bcast_S_S100000x40)

/-- An edge-indexed vector followed by one entry per node. -/
def withLoops {α : Type} (e : S1600000.Idx → α) (loops : S100000.Idx → α) : S1700000.Idx → α :=
  concatenate S1700000 0 [⟨S1600000, e⟩, ⟨S100000, loops⟩] concatenates_S1600000_S100000_S1700000_d0

theorem withLoops_def {α : Type} (e : S1600000.Idx → α) (loops : S100000.Idx → α) :
    withLoops e loops = concatenate S1700000 0 [⟨S1600000, e⟩, ⟨S100000, loops⟩] concatenates_S1600000_S100000_S1700000_d0 := Eq.trans rfl rfl

/-- The row (target) node of every edge, then every node once. -/
def rowsOf (ei : IVec S2x1600000 32) : IVec S1700000 32 :=
  withLoops (shapeCast S1600000 (extractStridedSlice S1x1600000 ![0, 0] ei slices_S2x1600000_S1x1600000_0_0) shapeCasts_S1x1600000_S1600000)
    (iotaInDim S100000 32 0)

/-- The column (source) node of every edge, then every node once. -/
def colsOf (ei : IVec S2x1600000 32) : IVec S1700000 32 :=
  withLoops (shapeCast S1600000 (extractStridedSlice S1x1600000 ![1, 0] ei slices_S2x1600000_S1x1600000_1_0) shapeCasts_S1x1600000_S1600000)
    (iotaInDim S100000 32 0)

/-- The edges' weights, then weight one for every self-loop. -/
def weightsOf (ew : FVec Ideal S1600000 .f32) : FVec Ideal S1700000 .f32 :=
  withLoops ew (broadcastInDim S100000 ![] bcast_S_S100000 (constant S_ .f32 0x3F800000#32))

/-- Zero at every node. -/
def zeroNodes : FVec Ideal S100000 .f32 := broadcastInDim S100000 ![] bcast_S_S100000 (constant S_ .f32 0x00000000#32)

/-- Each node's degree: the sum of the weights of the edges whose row is the node. -/
def degree (rows : IVec S1700000 32) (w : FVec Ideal S1700000 .f32) : FVec Ideal S100000 .f32 :=
  Host.scatterAdd scatter_S100000_S1700000x1_S1700000_n_0_0_1 zeroNodes
    (broadcastInDim S1700000x1 ![0] bcast_S1700000_S1700000x1_0 rows) w

/-- Indices as a column of start indices, a negative one first moved up by the number of nodes. -/
def startIdx (i : IVec S1700000 32) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- Every edge's weight dinv[row] · w · dinv[col]. -/
def edgeNorm (dinv : FVec Ideal S100000 .f32) (rows cols : IVec S1700000 32) (w : FVec Ideal S1700000 .f32) :
    FVec Ideal S1700000 .f32 :=
  mulf (mulf (Host.gather gather_S100000_S1700000x1_S1700000_n_0_n_n_0_1_1 dinv (startIdx rows)) w)
    (Host.gather gather_S100000_S1700000x1_S1700000_n_0_n_n_0_1_1 dinv (startIdx cols))

/-- Aggregation of a 128-column feature matrix along the edges. -/
def aggregate128 (rows cols : IVec S1700000 32) (nrm : FVec Ideal S1700000 .f32) (f : FVec Ideal S100000x128 .f32) :
    FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 rows)
    (mulf (broadcastInDim S1700000x128 ![0, 1] bcast_S1700000x1_S1700000x128_0_1
        (broadcastInDim S1700000x1 ![0] bcast_S1700000_S1700000x1_0 nrm))
      (Host.gather gather_S100000x128_S1700000x1_S1700000x128_1_0_n_n_0_1_1128 f (startIdx cols)))

/-- Aggregation of a 40-column feature matrix along the edges. -/
def aggregate40 (rows cols : IVec S1700000 32) (nrm : FVec Ideal S1700000 .f32) (f : FVec Ideal S100000x40 .f32) :
    FVec Ideal S100000x40 .f32 :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 rows)
    (mulf (broadcastInDim S1700000x40 ![0, 1] bcast_S1700000x1_S1700000x40_0_1
        (broadcastInDim S1700000x1 ![0] bcast_S1700000_S1700000x1_0 nrm))
      (Host.gather gather_S100000x40_S1700000x1_S1700000x40_1_0_n_n_0_1_140 f (startIdx cols)))

/-- Which nodes have positive degree. -/
def positive (d : FVec Ideal S100000 .f32) : IVec S100000 1 := cmpf .ogt d zeroNodes

/-- d^(−1/2) where the degree is positive, zero elsewhere: the reference's way. -/
def invSqrtRef (d : FVec Ideal S100000 .f32) : FVec Ideal S100000 .f32 :=
  select (positive d) (Host.rsqrt d) (broadcastInDim S100000 ![] bcast_S_S100000 (id (constant S_ .f32 0x00000000#32)))

/-- The same with the root taken of a degree first replaced by one where it is not positive: the kernel's way. -/
def invSqrtKer (d : FVec Ideal S100000 .f32) : FVec Ideal S100000 .f32 :=
  select (positive d)
    (Host.rsqrt (select (positive d) d (broadcastInDim S100000 ![] bcast_S_S100000 (id (constant S_ .f32 0x3F800000#32)))))
    (broadcastInDim S100000 ![] bcast_S_S100000 (id (constant S_ .f32 0x00000000#32)))

/-- Where the degree is positive the replaced degree is the degree; elsewhere neither root is used. -/
theorem invSqrtKer_eq (d : FVec Ideal S100000 .f32) : invSqrtKer d = invSqrtRef d := by
  funext i
  unfold invSqrtKer invSqrtRef
  rw [ValueIdx.select_apply, ValueIdx.select_apply]
  unfold Scalar.select
  split
  · next hc =>
    show FloatOps.hostUnary .rsqrt (select (positive d) d _ i) = FloatOps.hostUnary .rsqrt (d i)
    rw [ValueIdx.select_apply]
    unfold Scalar.select
    rw [if_pos hc]
  · rfl

end Cert.Gcn

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.FirstProduct.lean ====
/-
  The first launch: x · W1 computed in twenty blocks of 5000 rows.

  At grid point t the body reads rows 5000·t … 5000·t + 4999 of x and the whole of W1, multiplies them on the matrix
  unit into a zero accumulator (the change of format before the product is the identity on the extended reals) and
  writes the 5000 × 128 result back as rows 5000·t … of the output. Entry (p, q) of that block is the sum over k of
  x(5000·t + p, k) · W1(k, q): entry (5000·t + p, q) of the one product of the whole arrays. The twenty blocks tile the
  output (row r lies in block r / 5000), so after the launch the output array IS the whole product.
  Everything is stated for arbitrary contents `V` of the buffers at the launch's entry.
-/
import proofs.«134297_j80453327389046_2_alg».proof.Proof.Gen.KernelIdeal.Frame
import proofs.«134297_j80453327389046_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The product of the whole arrays: entry (r, q) is the sum over k of x(r, k) · w(k, q). -/
def xw (x : FVec Ideal S100000x128 .f32) (w : FVec Ideal S128x128 .f32) : FVec Ideal S100000x128 .f32 :=
  Host.dotGeneral (F := Ideal) (φ₁ := .f32) (φ₂ := .f32) (DotDims.plain 100000 128 128) none x w

theorem origin : (![0, 0] : Fin 2 → Nat) = fun _ => 0 := funext fun a => by fin_cases a <;> rfl

/-- One block's product, entry by entry. -/
theorem block_product (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.Sage.matmul_plain_zero_apply (M := 5000) (K := 128) (N := 128) none x0 x1 p q

/-- Where the three windows' blocks sit at point t: x's and the output's at block row t, W1's at the origin. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (xw (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_positions t
  have ht : t.val < 20 := lt_of_lt_of_eq t.isLt N_0
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = xw (V c main_arg0) (V c main_arg3) (((cfg0.win 2).blk t).view.emb (ix2 p q))
  have hout : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hout]
  refine (block_product (iblk0 V c 0 t) (iblk0 V c 1 t) p q).trans ?_
  unfold xw
  refine Eq.trans ?_ (Cert.Sage.dotGeneral_plain_apply (M := 100000) (K := 128) (N := 128) none .single
    (V c main_arg0) (V c main_arg3) ⟨t.val * 5000 + p.val, by omega⟩ q).symm
  refine Finset.sum_congr rfl fun k _ => ?_
  have hx : iblk0 V c 0 t (ix2 p k) = V c main_arg0 (ix2 (⟨t.val * 5000 + p.val, by omega⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hw : iblk0 V c 1 t (ix2 k q) = V c main_arg3 (ix2 k q) := by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output lies in point t's block iff each coordinate lies in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v35).slice (win0_2.rect t)).set ↔ _
  rw [View.set_slice_whole, Rect.mem_set_unit]
  exact Iff.rfl

/-- Row r of the output lies in the block of point r / 5000. -/
theorem covered (i : S100000x128.Idx) :
    ∃ t : Fin cfg0.N, (cfg0.win 2).flush t = true ∧ i ∈ ((cfg0.win 2).blk t).view.set := by
  have h0 : (i 0).val < 100000 := idx2_lt0 i
  have h1 : (i 1).val < 128 := idx2_lt1 i
  have hN : grid0.N = 20 := N_0
  let t : Fin cfg0.N := ⟨(i 0).val / 5000, by show (i 0).val / 5000 < grid0.N; omega⟩
  obtain ⟨e0, e1, e2, e3, e4, e5⟩ := block_positions t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is the whole product of the arrays the launch found. -/
theorem array_eq (c : Dev nD) : (dat0 V c).arrAt 2 cfg0.N = xw (V c main_arg0) (V c main_arg3) :=
  (dat0 V c).arrAt_eq_of_cover 2 _ (fun t _ => flushed_eq V c t) covered

end Cert.KernelIdeal.FirstProduct

end
-- ==== Proof.SecondProduct.lean ====
/-
  The second launch: relu(h) · W2 computed in twenty blocks of 5000 rows.

  At grid point t the body reads rows 5000·t … 5000·t + 4999 of h and the whole of W2, takes the maximum of every entry of
  the block with zero, multiplies on the matrix unit into a zero accumulator (the changes of format are the identity on
  the extended reals) and writes the 5000 × 40 result back as rows 5000·t … of the output. Entry (p, q) of that block is
  the sum over k of max(h(5000·t + p, k), 0) · W2(k, q): entry (5000·t + p, q) of the one product of the whole relu(h)
  with W2. The twenty blocks tile the output, so after the launch the output array IS that product.
  Everything is stated for arbitrary contents `V` of the buffers at the launch's entry.
-/
import proofs.«134297_j80453327389046_2_alg».proof.Proof.Gen.KernelIdeal.Frame
import proofs.«134297_j80453327389046_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Every entry's maximum with zero. -/
def relu (h : FVec Ideal S100000x128 .f32) : FVec Ideal S100000x128 .f32 :=
  maximumf h (broadcastInDim S100000x128 ![] Gen.bcast_S_S100000x128 (constant S_ .f32 0x00000000#32))

theorem relu_apply (h : FVec Ideal S100000x128 .f32) (i : S100000x128.Idx) :
    relu h i = FloatOps.maximumf (F := Ideal) (φ := .f32) (h i) (FloatOps.ofBits .f32 0x00000000#32) := rfl

/-- The product of the whole arrays, after the maximum with zero: entry (r, q) is the sum over k of
    max(h(r, k), 0) · w(k, q). -/
def hw (h : FVec Ideal S100000x128 .f32) (w : FVec Ideal S128x40 .f32) : FVec Ideal S100000x40 .f32 :=
  Host.dotGeneral (F := Ideal) (φ₁ := .f32) (φ₂ := .f32) (DotDims.plain 100000 128 40) none (relu h) w

theorem origin : (![0, 0] : Fin 2 → Nat) = fun _ => 0 := funext fun a => by fin_cases a <;> rfl

/-- One block's product, entry by entry. -/
theorem block_product (x0 : Vec Ideal S5000x128 .f32) (x1 : Vec Ideal S128x40 .f32) (p : Fin 5000) (q : Fin 40) :
    k1_pay1 x0 x1 (ix2 p q)
      = ∑ k : Fin 128, (FloatOps.maximumf (F := Ideal) (φ := .f32) (x0 (ix2 p k)) (FloatOps.ofBits .f32 0x00000000#32) : Ideal .f32)
          * x1 (ix2 k q) := by
  unfold k1_pay1
  refine (Cert.Sage.matmul_plain_zero_apply (M := 5000) (K := 128) (N := 40) none _ _ p q).trans ?_
  refine Finset.sum_congr rfl fun k _ => ?_
  show (FloatOps.maximumf (F := Ideal) (φ := .f32) (shapeCast S5000x128 x0 shapeCasts_S5000x128_S5000x128 (ix2 p k))
      (Scalar.ofBits .f32 0x00000000#32) : Ideal .f32) * x1 (ix2 k q) = _
  rw [shapeCast_self]

/-- Where the three windows' blocks sit at point t: h's and the output's at block row t, W2's at the origin. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed_eq (c : Dev nD) (t : Fin cfg1.N) :
    (dat1 V c).flushed 2 t = ((cfg1.win 2).blk t).view.read (Elt Ideal) (hw (V c main_v48) (V c main_arg4)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x40) origin]
  obtain ⟨e0, e1, e2, e3, e4, e5⟩ := block_positions t
  have ht : t.val < 20 := lt_of_lt_of_eq t.isLt N_1
  funext j
  obtain ⟨p, q, rfl⟩ : ∃ (p : Fin 5000) (q : Fin 40), j = ix2 p q := ⟨j 0, j 1, eq_ix2 j⟩
  show k1_pay1 (iblk1 V c 0 t) (iblk1 V c 1 t) (ix2 p q)
    = hw (V c main_v48) (V c main_arg4) (((cfg1.win 2).blk t).view.emb (ix2 p q))
  have hout : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 40 + 1 * q.val = q.val; omega
  rw [hout]
  refine (block_product (iblk1 V c 0 t) (iblk1 V c 1 t) p q).trans ?_
  unfold hw
  refine Eq.trans ?_ (Cert.Sage.dotGeneral_plain_apply (M := 100000) (K := 128) (N := 40) none .single
    (relu (V c main_v48)) (V c main_arg4) ⟨t.val * 5000 + p.val, by omega⟩ q).symm
  refine Finset.sum_congr rfl fun k _ => ?_
  have hx : iblk1 V c 0 t (ix2 p k) = V c main_v48 (ix2 (⟨t.val * 5000 + p.val, by omega⟩ : Fin 100000) k) := by
    show V c main_v48 (((cfg1.win 0).blk t).view.emb (ix2 p k)) = _
    refine congrArg (V c main_v48) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have hw' : iblk1 V c 1 t (ix2 k q) = V c main_arg4 (ix2 k q) := by
    show V c main_arg4 (((cfg1.win 1).blk t).view.emb (ix2 k q)) = _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 40 + 1 * q.val = q.val; omega
  rw [hx, hw', relu_apply]

/-- An index of the output lies in point t's block iff each coordinate lies in the block's range on its axis. -/
theorem mem_block (t : Fin cfg1.N) (i : S100000x40.Idx) :
    i ∈ ((cfg1.win 2).blk t).view.set ↔ ∀ a : Fin 2, win1_2.index t a * S5000x40.size a ≤ (i a).val
      ∧ (i a).val < win1_2.index t a * S5000x40.size a + S5000x40.size a := by
  show i ∈ ((View.whole main_v49).slice (win1_2.rect t)).set ↔ _
  rw [View.set_slice_whole, Rect.mem_set_unit]
  exact Iff.rfl

/-- Row r of the output lies in the block of point r / 5000. -/
theorem covered (i : S100000x40.Idx) :
    ∃ t : Fin cfg1.N, (cfg1.win 2).flush t = true ∧ i ∈ ((cfg1.win 2).blk t).view.set := by
  have h0 : (i 0).val < 100000 := idx2_lt0 i
  have h1 : (i 1).val < 40 := idx2_lt1 i
  have hN : grid1.N = 20 := N_1
  let t : Fin cfg1.N := ⟨(i 0).val / 5000, by show (i 0).val / 5000 < grid1.N; omega⟩
  obtain ⟨e0, e1, e2, e3, e4, e5⟩ := block_positions t
  have e4' : win1_2.index t (0 : Fin 2) = (i 0).val / 5000 := e4
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- After the launch the output array is the whole product of relu of the array the launch found with W2. -/
theorem array_eq (c : Dev nD) : (dat1 V c).arrAt 2 cfg1.N = hw (V c main_v48) (V c main_arg4) :=
  (dat1 V c).arrAt_eq_of_cover 2 _ (fun t _ => flushed_eq V c t) covered

end Cert.KernelIdeal.SecondProduct

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.HostLogSoftmax.lean ====
/-
  The row-wise log-softmax, as a formula on one row and as the host's composition on a whole array.

  For a row f of forty extended reals let M be the maximum of the row (folded from −∞). The row's log-softmax at
  position q is (f q − M) − log (Σₖ exp (f k − M)). The host computes it on a [100000, 40] array with a reduce by maximum
  along the rows, one more maximum with −∞ (which changes nothing: M is already at least the fold's starting value), two
  broadcasts that spread the column of maxima along the rows, a subtraction, an exponential, a row sum from zero, a
  logarithm, the same two broadcasts and a last subtraction. Read at entry (r, q) that composition is the row formula on
  row r.
-/
import proofs.«134297_j80453327389046_2_alg».proof.Proof.Gen.ReferenceIdeal
import proofs.«134297_j80453327389046_2_alg».proof.Proof.LibHostRowMax
import proofs.«134297_j80453327389046_2_alg».proof.Proof.LibHostColumn
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx
open Cert.ReferenceIdeal (S_ S100000 S100000x1 S100000x40)
open Cert.LibHostColumn

/-- −∞ as the float word the programs write. -/
abbrev negInf : Ideal .f32 := FloatOps.ofBits .f32 0xFF800000#32

/-- A row's maximum, folded from −∞. -/
def rowMax (f : Fin 40 → Ideal .f32) : Ideal .f32 := (Finset.univ : Finset (Fin 40)).fold max negInf f

/-- The row's log-softmax at position q. -/
def lsmRow (f : Fin 40 → Ideal .f32) (q : Fin 40) : Ideal .f32 :=
  (f q - rowMax f) - Ideal.log (∑ k : Fin 40, Ideal.exp (f k - rowMax f))

/-- The column of row maxima as the host computes it. -/
def hostMax (h : FVec Ideal S100000x40 .f32) : FVec Ideal S100000 .f32 :=
  maximumf (broadcastInDim S100000 ![] Cert.ReferenceIdeal.Gen.bcast_S_S100000 (constant S_ .f32 0xFF800000#32))
    (Host.reduce FloatOps.maximumf h (constant S_ .f32 0xFF800000#32) Cert.ReferenceIdeal.Gen.reducesTo_S100000x40_S100000_d1
      Cert.ReferenceIdeal.Gen.h_S_)

/-- The array minus its rows' maxima. -/
def hostShifted (h : FVec Ideal S100000x40 .f32) : FVec Ideal S100000x40 .f32 :=
  subf h (broadcastInDim S100000x40 ![0, 1] Cert.ReferenceIdeal.Gen.bcast_S100000x1_S100000x40_0_1
    (broadcastInDim S100000x1 ![0] Cert.ReferenceIdeal.Gen.bcast_S100000_S100000x1_0 (hostMax h)))

/-- The host's log-softmax of a whole array. -/
def hostLogSoftmax (h : FVec Ideal S100000x40 .f32) : FVec Ideal S100000x40 .f32 :=
  subf (hostShifted h) (broadcastInDim S100000x40 ![0, 1] Cert.ReferenceIdeal.Gen.bcast_S100000x1_S100000x40_0_1
    (Host.log (broadcastInDim S100000x1 ![0] Cert.ReferenceIdeal.Gen.bcast_S100000_S100000x1_0
      (Host.reduceAdd (Host.exp (hostShifted h)) (constant S_ .f32 0x00000000#32)
        Cert.ReferenceIdeal.Gen.reducesTo_S100000x40_S100000_d1 Cert.ReferenceIdeal.Gen.h_S_))))

theorem reduces_rows : S100000x40.Reduces [1] S100000 := by decide

/-- The host's exponential and logarithm are entrywise. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- −∞ spread over a vector reads −∞ at every entry. -/
theorem spread_negInf (r : Fin 100000) :
    broadcastInDim S100000 ![] Cert.ReferenceIdeal.Gen.bcast_S_S100000 (constant (F := Ideal) S_ .f32 0xFF800000#32) (ix1 r) = negInf := rfl

/-- The host's reduce by maximum at row r: the fold of the maximum over the row from −∞. -/
theorem hostRowMax_apply (h : FVec Ideal S100000x40 .f32) (r : Fin 100000) :
    Host.reduce (FloatOps.maximumf (F := Ideal) (φ := .f32)) h (constant (F := Ideal) S_ .f32 0xFF800000#32)
        Cert.ReferenceIdeal.Gen.reducesTo_S100000x40_S100000_d1 Cert.ReferenceIdeal.Gen.h_S_ (ix1 r)
      = rowMax fun k => h (ix2 r k) :=
  Cert.LibHostRowMax.reduce_max_row (n := 100000) (d := 40) h (constant (F := Ideal) S_ .f32 0xFF800000#32)
    Cert.ReferenceIdeal.Gen.reducesTo_S100000x40_S100000_d1 reduces_rows Cert.ReferenceIdeal.Gen.h_S_ r

/-- The host's column of maxima at row r is the row's maximum. -/
theorem hostMax_apply (h : FVec Ideal S100000x40 .f32) (r : Fin 100000) :
    hostMax h (ix1 r) = rowMax fun k => h (ix2 r k) := by
  unfold hostMax
  rw [maximumf_apply, hostRowMax_apply, spread_negInf]
  exact max_start_fold Finset.univ negInf _

/-- The shifted array at (r, q). -/
theorem hostShifted_apply (h : FVec Ideal S100000x40 .f32) (r : Fin 100000) (q : Fin 40) :
    hostShifted h (ix2 r q) = h (ix2 r q) - rowMax fun k => h (ix2 r k) := by
  unfold hostShifted
  rw [subf_apply, spread_apply, column_apply, hostMax_apply]

/-- The host's row sum from zero at row r is the sum of the row. -/
theorem hostRowSum_apply (x : FVec Ideal S100000x40 .f32) (r : Fin 100000) :
    Host.reduceAdd x (constant S_ .f32 0x00000000#32) Cert.ReferenceIdeal.Gen.reducesTo_S100000x40_S100000_d1
      Cert.ReferenceIdeal.Gen.h_S_ (ix1 r) = ∑ k : Fin 40, x (ix2 r k) := by
  unfold Host.reduceAdd
  rw [Ideal.hostReduceAdd_def, Ideal.hostReduceAdd_single _ reduces_rows]
  have h0 : (constant (F := Ideal) S_ .f32 0x00000000#32) (Shape.Idx.first Cert.ReferenceIdeal.Gen.h_S_) = 0 :=
    Ideal.ofBits_zero_f32
  rw [h0, zero_add]
  exact Finset.sum_congr rfl fun k _ => congrArg x (Cert.LibHostRowMax.lift_row reduces_rows r k)

/-- The host's log-softmax at (r, q) is the row formula on row r. -/
theorem hostLogSoftmax_apply (h : FVec Ideal S100000x40 .f32) (r : Fin 100000) (q : Fin 40) :
    hostLogSoftmax h (ix2 r q) = lsmRow (fun k => h (ix2 r k)) q := by
  unfold hostLogSoftmax
  rw [subf_apply, spread_apply, hostShifted_apply, hostLog_apply, column_apply, hostRowSum_apply]
  unfold lsmRow
  refine congrArg (fun s => (h (ix2 r q) - rowMax fun k => h (ix2 r k)) - Ideal.log s) ?_
  exact Finset.sum_congr rfl fun k _ => by rw [hostExp_apply, hostShifted_apply]

end Cert.Gcn

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.RowLogSoftmax.lean ====
/-
  The third launch: the row-wise log-softmax computed in twenty blocks of 5000 rows.

  At grid point t the body reads rows 5000·t … 5000·t + 4999 of the input. For every row of the block it takes the row's
  maximum M (a lane reduction from −∞), subtracts it from the row, sums the exponentials of the differences (a lane
  reduction from zero), and subtracts the logarithm of that sum: entry (p, q) of the block it writes back is the row
  formula (f q − M) − log Σₖ exp (f k − M) on row 5000·t + p of the input. The host's composition on the whole array reads
  the same formula at every entry, so the block is block t of the host's log-softmax of the whole input; the twenty blocks
  tile the output, so after the launch the output array IS that log-softmax.
  Everything is stated for arbitrary contents `V` of the buffers at the launch's entry.
-/
import proofs.«134297_j80453327389046_2_alg».proof.Proof.Gen.KernelIdeal.Frame
import proofs.«134297_j80453327389046_2_alg».proof.Proof.HostLogSoftmax
import proofs.«134297_j80453327389046_2_alg».proof.Proof.LibLayout
import proofs.«134297_j80453327389046_2_alg».proof.Proof.LibHostRowMax
import Idealize.ShloMosaic.Lib.Pipeline.Value
import Idealize.ShloMosaic.Lib.ValueIdx
import Idealize.ShloMosaic.PureOps.Ideal.Laws

set_option maxRecDepth 16384

noncomputable section

namespace Cert.KernelIdeal.RowLogSoftmax

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The rows' maxima of a block, spread back along the rows. -/
def blockMax (v1 : FVec Ideal S5000x40 .f32) : FVec Ideal S5000x40 .f32 :=
  broadcastTo S5000x40 (shapeCast S5000x1 (multiReduction .maximumf [1] S5000 v1 0xFF800000#32 Gen.reduces_S5000x40_S5000 (.inl rfl) rfl)
    Gen.shapeCasts_S5000_S5000x1) Gen.broadcasts_S5000x1_S5000x40

/-- The logarithms of the rows' sums of a block, spread back along the rows. -/
def blockLogSum (v6 : FVec Ideal S5000x40 .f32) : FVec Ideal S5000x40 .f32 :=
  broadcastTo S5000x40 (Idealize.ShloMosaic.log (shapeCast S5000x1 (multiReduction .add [1] S5000 v6 0x00000000#32 Gen.reduces_S5000x40_S5000 (.inl rfl) rfl)
    Gen.shapeCasts_S5000_S5000x1)) Gen.broadcasts_S5000x1_S5000x40

/-- The body's arithmetic in those two words. -/
theorem body_eq (x0 : Vec Ideal S5000x40 .f32) :
    k2_pay1 x0 = subf (subf (shapeCast S5000x40 x0 Gen.shapeCasts_S5000x40_S5000x40) (blockMax (shapeCast S5000x40 x0 Gen.shapeCasts_S5000x40_S5000x40)))
      (blockLogSum (Idealize.ShloMosaic.exp (subf (shapeCast S5000x40 x0 Gen.shapeCasts_S5000x40_S5000x40)
        (blockMax (shapeCast S5000x40 x0 Gen.shapeCasts_S5000x40_S5000x40))))) := rfl

/-- Entry (p, q) of the spread maxima is row p's maximum. -/
theorem blockMax_apply (v1 : FVec Ideal S5000x40 .f32) (p : Fin 5000) (q : Fin 40) :
    blockMax v1 (ix2 p q) = rowMax fun k => v1 (ix2 p k) := by
  unfold blockMax
  refine (Cert.LibLayout.broadcastTo_a1_ab_apply _ _ p q).trans ?_
  refine (Cert.LibLayout.shapeCast_a_a1_apply _ _ p (0 : Fin 1)).trans ?_
  refine (Ideal.multiReduction_maximumf_single v1 0xFF800000#32 Gen.reduces_S5000x40_S5000 (.inl rfl) rfl (ix1 p)).trans ?_
  unfold rowMax
  refine congrArg (Finset.fold max negInf · Finset.univ) ?_
  funext k
  exact congrArg v1 (Cert.LibHostRowMax.lift_row Gen.reduces_S5000x40_S5000 p k)

/-- The kernel's exponential and logarithm are entrywise. -/
theorem exp_entry {s : Shape} (x : FVec Ideal s .f32) (i : s.Idx) : Idealize.ShloMosaic.exp x i = Ideal.exp (x i) := rfl
theorem log_entry {s : Shape} (x : FVec Ideal s .f32) (i : s.Idx) : Idealize.ShloMosaic.log x i = Ideal.log (x i) := rfl

/-- Entry (p, q) of the spread logarithms is the logarithm of row p's sum. -/
theorem blockLogSum_apply (v6 : FVec Ideal S5000x40 .f32) (p : Fin 5000) (q : Fin 40) :
    blockLogSum v6 (ix2 p q) = Ideal.log (∑ k : Fin 40, v6 (ix2 p k)) := by
  unfold blockLogSum
  refine (Cert.LibLayout.broadcastTo_a1_ab_apply _ _ p q).trans ?_
  rw [log_entry]
  refine congrArg Ideal.log ?_
  refine (Cert.LibLayout.shapeCast_a_a1_apply _ _ p (0 : Fin 1)).trans ?_
  refine (Ideal.multiReduction_add_single v6 0x00000000#32 Gen.reduces_S5000x40_S5000 (.inl rfl) rfl (ix1 p)).trans ?_
  exact Finset.sum_congr rfl fun k _ => congrArg v6 (Cert.LibHostRowMax.lift_row Gen.reduces_S5000x40_S5000 p k)

/-- One block's result, entry by entry: the row formula on the block's row. -/
theorem block_rows (x0 : Vec Ideal S5000x40 .f32) (p : Fin 5000) (q : Fin 40) :
    k2_pay1 x0 (ix2 p q) = lsmRow (fun k => x0 (ix2 p k)) q := by
  rw [body_eq, shapeCast_self, subf_apply, subf_apply, blockMax_apply, blockLogSum_apply]
  unfold lsmRow
  refine congrArg (fun s => (x0 (ix2 p q) - rowMax fun k => x0 (ix2 p k)) - Ideal.log s) ?_
  exact Finset.sum_congr rfl fun k _ => by rw [exp_entry, subf_apply, blockMax_apply]

theorem origin : (![0, 0] : Fin 2 → Nat) = fun _ => 0 := funext fun a => by fin_cases a <;> rfl

/-- Where the two windows' blocks sit at point t: both at block row t. -/
theorem block_positions : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point t writes back is block t of the host's log-softmax of the whole input. -/
theorem flushed_eq (c : Dev nD) (t : Fin cfg2.N) :
    (dat2 V c).flushed 1 t = ((cfg2.win 1).blk t).view.read (Elt Ideal) (hostLogSoftmax (V c main_v62)) := by
  show (cfg2.win 1).cut (grid2.coords t) ((dat2 V c).after 1 t) = _
  rw [after2_1]
  unfold out2_1
  rw [View.canon_unit_zero origin]
  simp only [View.ld_unit_zero (S := S5000x40) origin]
  obtain ⟨e0, e1, e2, e3⟩ := block_positions t
  have ht : t.val < 20 := lt_of_lt_of_eq t.isLt N_2
  funext j
  obtain ⟨p, q, rfl⟩ : ∃ (p : Fin 5000) (q : Fin 40), j = ix2 p q := ⟨j 0, j 1, eq_ix2 j⟩
  show k2_pay1 (iblk2 V c 0 t) (ix2 p q) = hostLogSoftmax (V c main_v62) (((cfg2.win 1).blk t).view.emb (ix2 p q))
  have hout : ((cfg2.win 1).blk t).view.emb (ix2 p q) = ix2 (⟨t.val * 5000 + p.val, by omega⟩ : Fin 100000) q := by
    funext a; apply Fin.ext
    match a with
    | ⟨0, _⟩ => show win2_1.index t (0 : Fin 2) * 5000 + 1 * p.val = t.val * 5000 + p.val; omega
    | ⟨1, _⟩ => show win2_1.index t (1 : Fin 2) * 40 + 1 * q.val = q.val; omega
  rw [hout]
  refine (block_rows (iblk2 V c 0 t) p q).trans ?_
  refine Eq.trans ?_ (hostLogSoftmax_apply (V c main_v62) ⟨t.val * 5000 + p.val, by omega⟩ q).symm
  refine congrArg (lsmRow · q) ?_
  funext k
  show V c main_v62 (((cfg2.win 0).blk t).view.emb (ix2 p k)) = _
  refine congrArg (V c main_v62) ?_
  funext a; apply Fin.ext
  match a with
  | ⟨0, _⟩ => show win2_0.index t (0 : Fin 2) * 5000 + 1 * p.val = t.val * 5000 + p.val; omega
  | ⟨1, _⟩ => show win2_0.index t (1 : Fin 2) * 40 + 1 * k.val = k.val; omega

/-- An index of the output lies in point t's block iff each coordinate lies in the block's range on its axis. -/
theorem mem_block (t : Fin cfg2.N) (i : S100000x40.Idx) :
    i ∈ ((cfg2.win 1).blk t).view.set ↔ ∀ a : Fin 2, win2_1.index t a * S5000x40.size a ≤ (i a).val
      ∧ (i a).val < win2_1.index t a * S5000x40.size a + S5000x40.size a := by
  show i ∈ ((View.whole main_v63).slice (win2_1.rect t)).set ↔ _
  rw [View.set_slice_whole, Rect.mem_set_unit]
  exact Iff.rfl

/-- Row r of the output lies in the block of point r / 5000. -/
theorem covered (i : S100000x40.Idx) :
    ∃ t : Fin cfg2.N, (cfg2.win 1).flush t = true ∧ i ∈ ((cfg2.win 1).blk t).view.set := by
  have h0 : (i 0).val < 100000 := idx2_lt0 i
  have h1 : (i 1).val < 40 := idx2_lt1 i
  have hN : grid2.N = 20 := N_2
  let t : Fin cfg2.N := ⟨(i 0).val / 5000, by show (i 0).val / 5000 < grid2.N; omega⟩
  obtain ⟨e0, e1, e2, e3⟩ := block_positions t
  have e2' : win2_1.index t (0 : Fin 2) = (i 0).val / 5000 := e2
  refine ⟨t, flush2_1 t, ?_⟩
  rw [mem_block]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 40 ≤ (i 1).val ∧ (i 1).val < win2_1.index t (1 : Fin 2) * 40 + 40; omega

/-- After the launch the output array is the host's log-softmax of the array the launch found. -/
theorem array_eq (c : Dev nD) : (dat2 V c).arrAt 1 cfg2.N = hostLogSoftmax (V c main_v62) :=
  (dat2 V c).arrAt_eq_of_cover 1 _ (fun t _ => flushed_eq V c t) covered

end Cert.KernelIdeal.RowLogSoftmax

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.KernelValue.lean ====
/-
  What the idealized kernel program leaves in its result buffer, as one expression of its five arguments.

  The buffer contents at the ten boundaries are a fold through the program's segments. Read from the end: the result is
  what the log-softmax launch leaves, the host's log-softmax of the second aggregation; the second aggregation gathers,
  scales and scatter-adds the second launch's product relu(h) · W2, with h the first aggregation of the first launch's
  product x · W1; the edge weights, rows and columns come from the first five stretches, which only read the arguments.
  Each stretch of host operations is read once, for any contents before it, as one of the named graph functions of the
  buffers it reads; each launch's output array is its whole-array form; a buffer that a stretch or a launch does not
  write keeps its contents.
-/
import proofs.«134297_j80453327389046_2_alg».proof.Proof.Gen.KernelIdeal.Frame
import proofs.«134297_j80453327389046_2_alg».proof.Proof.Gcn
import proofs.«134297_j80453327389046_2_alg».proof.Proof.FirstProduct
import proofs.«134297_j80453327389046_2_alg».proof.Proof.SecondProduct
import proofs.«134297_j80453327389046_2_alg».proof.Proof.RowLogSoftmax
import proofs.«134297_j80453327389046_2_alg».proof.Proof.LibTRef

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Gcn

/-- The program's result as a function of its arguments. -/
def spec (x : FVec Ideal S100000x128 .f32) (ei : IVec S2x1600000 32) (ew : FVec Ideal S1600000 .f32)
    (w1 : FVec Ideal S128x128 .f32) (w2 : FVec Ideal S128x40 .f32) : FVec Ideal S100000x40 .f32 :=
  hostLogSoftmax (aggregate40 (rowsOf ei) (colsOf ei)
    (edgeNorm (invSqrtKer (degree (rowsOf ei) (weightsOf ew))) (rowsOf ei) (colsOf ei) (weightsOf ew))
    (SecondProduct.hw (aggregate128 (rowsOf ei) (colsOf ei)
      (edgeNorm (invSqrtKer (degree (rowsOf ei) (weightsOf ew))) (rowsOf ei) (colsOf ei) (weightsOf ew))
      (FirstProduct.xw x w1)) w2))

/-! Contents written through a typed reference whose type is the buffer's own are the contents themselves, and the same
    read back: one equation per buffer the two outlined selections name. -/
section TypedReferences
theorem toBuf_main_cst_2 (v : (⟨S_, .f32⟩ : BufTy).Contents (Elt Ideal)) : (TRef.of (sig := sig) (T := ⟨S_, .f32⟩) main_cst_2).toBuf v = v := Eq.trans rfl rfl
theorem ofBuf_main_cst_2 (v : main_cst_2.ty.Contents (Elt Ideal)) : (TRef.of (sig := sig) (T := ⟨S_, .f32⟩) main_cst_2).ofBuf v = v := Eq.trans rfl rfl
theorem toBuf_main_call0_v0 (v : (⟨S_, .f32⟩ : BufTy).Contents (Elt Ideal)) : (TRef.of (sig := sig) (T := ⟨S_, .f32⟩) main_call0_v0).toBuf v = v := Eq.trans rfl rfl
theorem ofBuf_main_call0_v0 (v : main_call0_v0.ty.Contents (Elt Ideal)) : (TRef.of (sig := sig) (T := ⟨S_, .f32⟩) main_call0_v0).ofBuf v = v := Eq.trans rfl rfl
theorem toBuf_main_call0_v1 (v : (⟨S100000, .f32⟩ : BufTy).Contents (Elt Ideal)) : (TRef.of (sig := sig) (T := ⟨S100000, .f32⟩) main_call0_v1).toBuf v = v := Eq.trans rfl rfl
theorem ofBuf_main_call0_v1 (v : main_call0_v1.ty.Contents (Elt Ideal)) : (TRef.of (sig := sig) (T := ⟨S100000, .f32⟩) main_call0_v1).ofBuf v = v := Eq.trans rfl rfl
theorem toBuf_main_v13 (v : (⟨S100000, .i1⟩ : BufTy).Contents (Elt Ideal)) : (TRef.of (sig := sig) (T := ⟨S100000, .i1⟩) main_v13).toBuf v = v := Eq.trans rfl rfl
theorem ofBuf_main_v13 (v : main_v13.ty.Contents (Elt Ideal)) : (TRef.of (sig := sig) (T := ⟨S100000, .i1⟩) main_v13).ofBuf v = v := Eq.trans rfl rfl
theorem toBuf_main_v11 (v : (⟨S100000, .f32⟩ : BufTy).Contents (Elt Ideal)) : (TRef.of (sig := sig) (T := ⟨S100000, .f32⟩) main_v11).toBuf v = v := Eq.trans rfl rfl
theorem ofBuf_main_v11 (v : main_v11.ty.Contents (Elt Ideal)) : (TRef.of (sig := sig) (T := ⟨S100000, .f32⟩) main_v11).ofBuf v = v := Eq.trans rfl rfl
theorem toBuf_main_v14 (v : (⟨S100000, .f32⟩ : BufTy).Contents (Elt Ideal)) : (TRef.of (sig := sig) (T := ⟨S100000, .f32⟩) main_v14).toBuf v = v := Eq.trans rfl rfl
theorem ofBuf_main_v14 (v : main_v14.ty.Contents (Elt Ideal)) : (TRef.of (sig := sig) (T := ⟨S100000, .f32⟩) main_v14).ofBuf v = v := Eq.trans rfl rfl
theorem toBuf_main_cst_4 (v : (⟨S_, .f32⟩ : BufTy).Contents (Elt Ideal)) : (TRef.of (sig := sig) (T := ⟨S_, .f32⟩) main_cst_4).toBuf v = v := Eq.trans rfl rfl
theorem ofBuf_main_cst_4 (v : main_cst_4.ty.Contents (Elt Ideal)) : (TRef.of (sig := sig) (T := ⟨S_, .f32⟩) main_cst_4).ofBuf v = v := Eq.trans rfl rfl
theorem toBuf_main_call1_v0 (v : (⟨S_, .f32⟩ : BufTy).Contents (Elt Ideal)) : (TRef.of (sig := sig) (T := ⟨S_, .f32⟩) main_call1_v0).toBuf v = v := Eq.trans rfl rfl
theorem ofBuf_main_call1_v0 (v : main_call1_v0.ty.Contents (Elt Ideal)) : (TRef.of (sig := sig) (T := ⟨S_, .f32⟩) main_call1_v0).ofBuf v = v := Eq.trans rfl rfl
theorem toBuf_main_call1_v1 (v : (⟨S100000, .f32⟩ : BufTy).Contents (Elt Ideal)) : (TRef.of (sig := sig) (T := ⟨S100000, .f32⟩) main_call1_v1).toBuf v = v := Eq.trans rfl rfl
theorem ofBuf_main_call1_v1 (v : main_call1_v1.ty.Contents (Elt Ideal)) : (TRef.of (sig := sig) (T := ⟨S100000, .f32⟩) main_call1_v1).ofBuf v = v := Eq.trans rfl rfl
theorem toBuf_main_v16 (v : (⟨S100000, .i1⟩ : BufTy).Contents (Elt Ideal)) : (TRef.of (sig := sig) (T := ⟨S100000, .i1⟩) main_v16).toBuf v = v := Eq.trans rfl rfl
theorem ofBuf_main_v16 (v : main_v16.ty.Contents (Elt Ideal)) : (TRef.of (sig := sig) (T := ⟨S100000, .i1⟩) main_v16).ofBuf v = v := Eq.trans rfl rfl
theorem toBuf_main_v17 (v : (⟨S100000, .f32⟩ : BufTy).Contents (Elt Ideal)) : (TRef.of (sig := sig) (T := ⟨S100000, .f32⟩) main_v17).toBuf v = v := Eq.trans rfl rfl
theorem ofBuf_main_v17 (v : main_v17.ty.Contents (Elt Ideal)) : (TRef.of (sig := sig) (T := ⟨S100000, .f32⟩) main_v17).ofBuf v = v := Eq.trans rfl rfl
theorem toBuf_main_v18 (v : (⟨S100000, .f32⟩ : BufTy).Contents (Elt Ideal)) : (TRef.of (sig := sig) (T := ⟨S100000, .f32⟩) main_v18).toBuf v = v := Eq.trans rfl rfl
theorem ofBuf_main_v18 (v : main_v18.ty.Contents (Elt Ideal)) : (TRef.of (sig := sig) (T := ⟨S100000, .f32⟩) main_v18).ofBuf v = v := Eq.trans rfl rfl
end TypedReferences

section Stretches

variable (W : Valuation τ sig (Elt Ideal))

/-- The five stretches before the first launch, run from contents W. -/
abbrev before (W : Valuation τ sig (Elt Ideal)) : Valuation τ sig (Elt Ideal) :=
  after (hostOps0_4 (F := Ideal)) (after (hostOps0_3 (F := Ideal)) (after (hostOps0_2 (F := Ideal))
    (after (hostOps0_1 (F := Ideal)) (after (hostOps0 (F := Ideal)) W))))

set_option maxHeartbeats 4000000 in
theorem before_arg0 : before W (Proc.devRef .tc main_arg0) = W (Proc.devRef .tc main_arg0) := by
  simp only [before, hostOps0, hostOps0_1, hostOps0_2, hostOps0_3, hostOps0_4]
  after_results_simp

set_option maxHeartbeats 4000000 in
theorem before_arg3 : before W (Proc.devRef .tc main_arg3) = W (Proc.devRef .tc main_arg3) := by
  simp only [before, hostOps0, hostOps0_1, hostOps0_2, hostOps0_3, hostOps0_4]
  after_results_simp

set_option maxHeartbeats 4000000 in
theorem before_arg4 : before W (Proc.devRef .tc main_arg4) = W (Proc.devRef .tc main_arg4) := by
  simp only [before, hostOps0, hostOps0_1, hostOps0_2, hostOps0_3, hostOps0_4]
  after_results_simp

set_option maxHeartbeats 4000000 in
/-- The rows, with the self-loops. -/
theorem before_rows : before W (Proc.devRef .tc main_v3) = rowsOf (W (Proc.devRef .tc main_arg1)) := by
  simp only [before, hostOps0, hostOps0_1, hostOps0_2, hostOps0_3, hostOps0_4]
  after_results_simp
  simp only [← withLoops_def]
  after_results_simp
  rfl

set_option maxHeartbeats 4000000 in
/-- The columns, with the self-loops. -/
theorem before_cols : before W (Proc.devRef .tc main_v6) = colsOf (W (Proc.devRef .tc main_arg1)) := by
  simp only [before, hostOps0, hostOps0_1, hostOps0_2, hostOps0_3, hostOps0_4]
  after_results_simp
  simp only [← withLoops_def]
  after_results_simp
  rfl

set_option maxHeartbeats 4000000 in
/-- The edges' weights dinv[row] · w · dinv[col]. -/
theorem before_norm : before W (Proc.devRef .tc main_v34)
    = edgeNorm (invSqrtKer (degree (rowsOf (W (Proc.devRef .tc main_arg1))) (weightsOf (W (Proc.devRef .tc main_arg2)))))
        (rowsOf (W (Proc.devRef .tc main_arg1))) (colsOf (W (Proc.devRef .tc main_arg1))) (weightsOf (W (Proc.devRef .tc main_arg2))) := by
  simp only [before, hostOps0, hostOps0_1, hostOps0_2, hostOps0_3, hostOps0_4]
  after_results_simp
  simp only [← withLoops_def]
  after_results_simp
  simp only [Cert.LibTRef.ofBuf_toBuf, Cert.LibTRef.toBuf_ofBuf, toBuf_main_cst_2, ofBuf_main_cst_2, toBuf_main_call0_v0, ofBuf_main_call0_v0, toBuf_main_call0_v1, ofBuf_main_call0_v1, toBuf_main_v13, ofBuf_main_v13, toBuf_main_v11, ofBuf_main_v11, toBuf_main_v14, ofBuf_main_v14, toBuf_main_cst_4, ofBuf_main_cst_4, toBuf_main_call1_v0, ofBuf_main_call1_v0, toBuf_main_call1_v1, ofBuf_main_call1_v1, toBuf_main_v16, ofBuf_main_v16, toBuf_main_v17, ofBuf_main_v17, toBuf_main_v18, ofBuf_main_v18]
  rfl

set_option maxHeartbeats 4000000 in
/-- The stretch between the first two launches aggregates the first product. -/
theorem between1_h : after (hostOps1 (F := Ideal)) W (Proc.devRef .tc main_v48)
    = aggregate128 (W (Proc.devRef .tc main_v3)) (W (Proc.devRef .tc main_v6)) (W (Proc.devRef .tc main_v34))
        (W (Proc.devRef .tc main_v35)) := by
  simp only [hostOps1]
  after_results_simp
  rfl

set_option maxHeartbeats 4000000 in
theorem between1_rows : after (hostOps1 (F := Ideal)) W (Proc.devRef .tc main_v3) = W (Proc.devRef .tc main_v3) := by
  simp only [hostOps1]; after_results_simp
set_option maxHeartbeats 4000000 in
theorem between1_cols : after (hostOps1 (F := Ideal)) W (Proc.devRef .tc main_v6) = W (Proc.devRef .tc main_v6) := by
  simp only [hostOps1]; after_results_simp
set_option maxHeartbeats 4000000 in
theorem between1_norm : after (hostOps1 (F := Ideal)) W (Proc.devRef .tc main_v34) = W (Proc.devRef .tc main_v34) := by
  simp only [hostOps1]; after_results_simp
set_option maxHeartbeats 4000000 in
theorem between1_arg4 : after (hostOps1 (F := Ideal)) W (Proc.devRef .tc main_arg4) = W (Proc.devRef .tc main_arg4) := by
  simp only [hostOps1]; after_results_simp

set_option maxHeartbeats 4000000 in
/-- The stretch between the last two launches aggregates the second product. -/
theorem between2_h : after (hostOps2 (F := Ideal)) W (Proc.devRef .tc main_v62)
    = aggregate40 (W (Proc.devRef .tc main_v3)) (W (Proc.devRef .tc main_v6)) (W (Proc.devRef .tc main_v34))
        (W (Proc.devRef .tc main_v49)) := by
  simp only [hostOps2]
  after_results_simp
  rfl

end Stretches

section Chain

variable (m : (ℓ : Loc nD τ sig) → Buf (Elt Ideal) ℓ) (ρ : Dev nD → PrngReg) (c : Dev nD)

/-- The five arguments as launched. -/
abbrev aX (m : (ℓ : Loc nD τ sig) → Buf (Elt Ideal) ℓ) (c : Dev nD) := m ((c : Thread nD τ).loc main_arg0)
abbrev aE (m : (ℓ : Loc nD τ sig) → Buf (Elt Ideal) ℓ) (c : Dev nD) := m ((c : Thread nD τ).loc main_arg1)
abbrev aW (m : (ℓ : Loc nD τ sig) → Buf (Elt Ideal) ℓ) (c : Dev nD) := m ((c : Thread nD τ).loc main_arg2)
abbrev a1 (m : (ℓ : Loc nD τ sig) → Buf (Elt Ideal) ℓ) (c : Dev nD) := m ((c : Thread nD τ).loc main_arg3)
abbrev a2 (m : (ℓ : Loc nD τ sig) → Buf (Elt Ideal) ℓ) (c : Dev nD) := m ((c : Thread nD τ).loc main_arg4)

/-- The edge weights as the program computes them from its arguments. -/
abbrev norm₀ (m : (ℓ : Loc nD τ sig) → Buf (Elt Ideal) ℓ) (c : Dev nD) : FVec Ideal S1700000 .f32 :=
  edgeNorm (invSqrtKer (degree (rowsOf (aE m c)) (weightsOf (aW m c)))) (rowsOf (aE m c)) (colsOf (aE m c)) (weightsOf (aW m c))

theorem entry0_arg0 : W5 m ρ c (Proc.devRef .tc main_arg0) = (aX m c) := before_arg0 (W0 m ρ c)
theorem entry0_arg3 : W5 m ρ c (Proc.devRef .tc main_arg3) = (a1 m c) := before_arg3 (W0 m ρ c)
theorem entry0_arg4 : W5 m ρ c (Proc.devRef .tc main_arg4) = (a2 m c) := before_arg4 (W0 m ρ c)
theorem entry0_rows : W5 m ρ c (Proc.devRef .tc main_v3) = rowsOf (aE m c) := before_rows (W0 m ρ c)
theorem entry0_cols : W5 m ρ c (Proc.devRef .tc main_v6) = colsOf (aE m c) := before_cols (W0 m ρ c)
theorem entry0_norm : W5 m ρ c (Proc.devRef .tc main_v34) = norm₀ m c := before_norm (W0 m ρ c)

/-- After the first launch its output holds x · W1. -/
theorem exit0_product : W6 m ρ c (Proc.devRef .tc main_v35) = FirstProduct.xw (aX m c) (a1 m c) := by
  refine (W6_arr m ρ c 2).trans ((FirstProduct.array_eq (V5 m ρ) c).trans ?_)
  rw [show V5 m ρ c main_arg0 = (aX m c) from entry0_arg0 m ρ c, show V5 m ρ c main_arg3 = (a1 m c) from entry0_arg3 m ρ c]

theorem exit0_rows : W6 m ρ c (Proc.devRef .tc main_v3) = rowsOf (aE m c) :=
  (W6_of_ne m ρ c main_v3 (by decide)).trans (entry0_rows m ρ c)
theorem exit0_cols : W6 m ρ c (Proc.devRef .tc main_v6) = colsOf (aE m c) :=
  (W6_of_ne m ρ c main_v6 (by decide)).trans (entry0_cols m ρ c)
theorem exit0_norm : W6 m ρ c (Proc.devRef .tc main_v34) = norm₀ m c :=
  (W6_of_ne m ρ c main_v34 (by decide)).trans (entry0_norm m ρ c)
theorem exit0_arg4 : W6 m ρ c (Proc.devRef .tc main_arg4) = (a2 m c) :=
  (W6_of_ne m ρ c main_arg4 (by decide)).trans (entry0_arg4 m ρ c)

/-- At the second launch's entry its input holds the first aggregation. -/
theorem entry1_h : W7 m ρ c (Proc.devRef .tc main_v48)
    = aggregate128 (rowsOf (aE m c)) (colsOf (aE m c)) (norm₀ m c) (FirstProduct.xw (aX m c) (a1 m c)) := by
  refine (between1_h (W6 m ρ c)).trans ?_
  rw [exit0_rows, exit0_cols, exit0_norm, exit0_product]

theorem entry1_rows : W7 m ρ c (Proc.devRef .tc main_v3) = rowsOf (aE m c) := (between1_rows (W6 m ρ c)).trans (exit0_rows m ρ c)
theorem entry1_cols : W7 m ρ c (Proc.devRef .tc main_v6) = colsOf (aE m c) := (between1_cols (W6 m ρ c)).trans (exit0_cols m ρ c)
theorem entry1_norm : W7 m ρ c (Proc.devRef .tc main_v34) = norm₀ m c := (between1_norm (W6 m ρ c)).trans (exit0_norm m ρ c)
theorem entry1_arg4 : W7 m ρ c (Proc.devRef .tc main_arg4) = (a2 m c) := (between1_arg4 (W6 m ρ c)).trans (exit0_arg4 m ρ c)

/-- After the second launch its output holds relu(h) · W2. -/
theorem exit1_product : W8 m ρ c (Proc.devRef .tc main_v49)
    = SecondProduct.hw (aggregate128 (rowsOf (aE m c)) (colsOf (aE m c)) (norm₀ m c) (FirstProduct.xw (aX m c) (a1 m c))) (a2 m c) := by
  refine (W8_arr m ρ c 2).trans ((SecondProduct.array_eq (V7 m ρ) c).trans ?_)
  rw [show V7 m ρ c main_v48 = _ from entry1_h m ρ c, show V7 m ρ c main_arg4 = (a2 m c) from entry1_arg4 m ρ c]

theorem exit1_rows : W8 m ρ c (Proc.devRef .tc main_v3) = rowsOf (aE m c) :=
  (W8_of_ne m ρ c main_v3 (by decide)).trans (entry1_rows m ρ c)
theorem exit1_cols : W8 m ρ c (Proc.devRef .tc main_v6) = colsOf (aE m c) :=
  (W8_of_ne m ρ c main_v6 (by decide)).trans (entry1_cols m ρ c)
theorem exit1_norm : W8 m ρ c (Proc.devRef .tc main_v34) = norm₀ m c :=
  (W8_of_ne m ρ c main_v34 (by decide)).trans (entry1_norm m ρ c)

/-- At the third launch's entry its input holds the second aggregation. -/
theorem entry2_h : W9 m ρ c (Proc.devRef .tc main_v62)
    = aggregate40 (rowsOf (aE m c)) (colsOf (aE m c)) (norm₀ m c)
        (SecondProduct.hw (aggregate128 (rowsOf (aE m c)) (colsOf (aE m c)) (norm₀ m c) (FirstProduct.xw (aX m c) (a1 m c))) (a2 m c)) := by
  refine (between2_h (W8 m ρ c)).trans ?_
  rw [exit1_rows, exit1_cols, exit1_norm, exit1_product]

/-- The result buffer at the last boundary is the program's function of its arguments. -/
theorem result_eq : W10 m ρ c (Proc.devRef .tc main_v63) = spec (aX m c) (aE m c) (aW m c) (a1 m c) (a2 m c) := by
  refine (W10_arr m ρ c 1).trans ((RowLogSoftmax.array_eq (V9 m ρ) c).trans ?_)
  rw [show V9 m ρ c main_v62 = _ from entry2_h m ρ c]
  rfl

end Chain

end Cert.KernelIdeal.Value

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefValue.lean ====
/-
  What the idealized reference program leaves in its result buffer, as one expression of its five arguments.

  The reference is one straight line of host operations, read in three consecutive stretches for any contents before
  each: the first adds the self-loops, multiplies x · W1, weights the edges and aggregates; the second takes the
  maximum with zero, multiplies by W2, weights the edges again (from the same rows, columns and weights) and aggregates;
  the third is the row-wise log-softmax. Chained, the result is the host's log-softmax of the second aggregation.
-/
import proofs.«134297_j80453327389046_2_alg».proof.Proof.RefProgram
import proofs.«134297_j80453327389046_2_alg».proof.Proof.Gcn
import proofs.«134297_j80453327389046_2_alg».proof.Proof.FirstProduct
import proofs.«134297_j80453327389046_2_alg».proof.Proof.SecondProduct
import proofs.«134297_j80453327389046_2_alg».proof.Proof.HostLogSoftmax
import proofs.«134297_j80453327389046_2_alg».proof.Proof.LibAfter
import proofs.«134297_j80453327389046_2_alg».proof.Proof.LibTRef

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Staged Cert.Gcn
open Cert.KernelIdeal (FirstProduct.xw SecondProduct.hw)

/-- The program's result as a function of its arguments. -/
def spec (x : FVec Ideal S100000x128 .f32) (ei : IVec S2x1600000 32) (ew : FVec Ideal S1600000 .f32)
    (w1 : FVec Ideal S128x128 .f32) (w2 : FVec Ideal S128x40 .f32) : FVec Ideal S100000x40 .f32 :=
  hostLogSoftmax (aggregate40 (rowsOf ei) (colsOf ei)
    (edgeNorm (invSqrtRef (degree (rowsOf ei) (weightsOf ew))) (rowsOf ei) (colsOf ei) (weightsOf ew))
    (Cert.KernelIdeal.SecondProduct.hw (aggregate128 (rowsOf ei) (colsOf ei)
      (edgeNorm (invSqrtRef (degree (rowsOf ei) (weightsOf ew))) (rowsOf ei) (colsOf ei) (weightsOf ew))
      (Cert.KernelIdeal.FirstProduct.xw x w1)) w2))

/-! Contents written through a typed reference whose type is the buffer's own are the contents themselves, and the same
    read back: one equation per buffer the outlined functions name. -/
section TypedReferences
theorem toBuf_main_cst_2 (v : (⟨S_, .f32⟩ : BufTy).Contents (Elt Ideal)) : (TRef.of (sig := sig) (T := ⟨S_, .f32⟩) main_cst_2).toBuf v = v := Eq.trans rfl rfl
theorem ofBuf_main_cst_2 (v : main_cst_2.ty.Contents (Elt Ideal)) : (TRef.of (sig := sig) (T := ⟨S_, .f32⟩) main_cst_2).ofBuf v = v := Eq.trans rfl rfl
theorem toBuf_main_call0_v0 (v : (⟨S_, .f32⟩ : BufTy).Contents (Elt Ideal)) : (TRef.of (sig := sig) (T := ⟨S_, .f32⟩) main_call0_v0).toBuf v = v := Eq.trans rfl rfl
theorem ofBuf_main_call0_v0 (v : main_call0_v0.ty.Contents (Elt Ideal)) : (TRef.of (sig := sig) (T := ⟨S_, .f32⟩) main_call0_v0).ofBuf v = v := Eq.trans rfl rfl
theorem toBuf_main_call0_v1 (v : (⟨S100000, .f32⟩ : BufTy).Contents (Elt Ideal)) : (TRef.of (sig := sig) (T := ⟨S100000, .f32⟩) main_call0_v1).toBuf v = v := Eq.trans rfl rfl
theorem ofBuf_main_call0_v1 (v : main_call0_v1.ty.Contents (Elt Ideal)) : (TRef.of (sig := sig) (T := ⟨S100000, .f32⟩) main_call0_v1).ofBuf v = v := Eq.trans rfl rfl
theorem toBuf_main_v14 (v : (⟨S100000, .i1⟩ : BufTy).Contents (Elt Ideal)) : (TRef.of (sig := sig) (T := ⟨S100000, .i1⟩) main_v14).toBuf v = v := Eq.trans rfl rfl
theorem ofBuf_main_v14 (v : main_v14.ty.Contents (Elt Ideal)) : (TRef.of (sig := sig) (T := ⟨S100000, .i1⟩) main_v14).ofBuf v = v := Eq.trans rfl rfl
theorem toBuf_main_v15 (v : (⟨S100000, .f32⟩ : BufTy).Contents (Elt Ideal)) : (TRef.of (sig := sig) (T := ⟨S100000, .f32⟩) main_v15).toBuf v = v := Eq.trans rfl rfl
theorem ofBuf_main_v15 (v : main_v15.ty.Contents (Elt Ideal)) : (TRef.of (sig := sig) (T := ⟨S100000, .f32⟩) main_v15).ofBuf v = v := Eq.trans rfl rfl
theorem toBuf_main_v16 (v : (⟨S100000, .f32⟩ : BufTy).Contents (Elt Ideal)) : (TRef.of (sig := sig) (T := ⟨S100000, .f32⟩) main_v16).toBuf v = v := Eq.trans rfl rfl
theorem ofBuf_main_v16 (v : main_v16.ty.Contents (Elt Ideal)) : (TRef.of (sig := sig) (T := ⟨S100000, .f32⟩) main_v16).ofBuf v = v := Eq.trans rfl rfl
theorem toBuf_main_call1_cst (v : (⟨S_, .f32⟩ : BufTy).Contents (Elt Ideal)) : (TRef.of (sig := sig) (T := ⟨S_, .f32⟩) main_call1_cst).toBuf v = v := Eq.trans rfl rfl
theorem ofBuf_main_call1_cst (v : main_call1_cst.ty.Contents (Elt Ideal)) : (TRef.of (sig := sig) (T := ⟨S_, .f32⟩) main_call1_cst).ofBuf v = v := Eq.trans rfl rfl
theorem toBuf_main_call1_v0 (v : (⟨S100000x128, .f32⟩ : BufTy).Contents (Elt Ideal)) : (TRef.of (sig := sig) (T := ⟨S100000x128, .f32⟩) main_call1_v0).toBuf v = v := Eq.trans rfl rfl
theorem ofBuf_main_call1_v0 (v : main_call1_v0.ty.Contents (Elt Ideal)) : (TRef.of (sig := sig) (T := ⟨S100000x128, .f32⟩) main_call1_v0).ofBuf v = v := Eq.trans rfl rfl
theorem toBuf_main_v45 (v : (⟨S100000x128, .f32⟩ : BufTy).Contents (Elt Ideal)) : (TRef.of (sig := sig) (T := ⟨S100000x128, .f32⟩) main_v45).toBuf v = v := Eq.trans rfl rfl
theorem ofBuf_main_v45 (v : main_v45.ty.Contents (Elt Ideal)) : (TRef.of (sig := sig) (T := ⟨S100000x128, .f32⟩) main_v45).ofBuf v = v := Eq.trans rfl rfl
theorem toBuf_main_v46 (v : (⟨S100000x128, .f32⟩ : BufTy).Contents (Elt Ideal)) : (TRef.of (sig := sig) (T := ⟨S100000x128, .f32⟩) main_v46).toBuf v = v := Eq.trans rfl rfl
theorem ofBuf_main_v46 (v : main_v46.ty.Contents (Elt Ideal)) : (TRef.of (sig := sig) (T := ⟨S100000x128, .f32⟩) main_v46).ofBuf v = v := Eq.trans rfl rfl
theorem toBuf_main_cst_11 (v : (⟨S_, .f32⟩ : BufTy).Contents (Elt Ideal)) : (TRef.of (sig := sig) (T := ⟨S_, .f32⟩) main_cst_11).toBuf v = v := Eq.trans rfl rfl
theorem ofBuf_main_cst_11 (v : main_cst_11.ty.Contents (Elt Ideal)) : (TRef.of (sig := sig) (T := ⟨S_, .f32⟩) main_cst_11).ofBuf v = v := Eq.trans rfl rfl
theorem toBuf_main_call2_v0 (v : (⟨S_, .f32⟩ : BufTy).Contents (Elt Ideal)) : (TRef.of (sig := sig) (T := ⟨S_, .f32⟩) main_call2_v0).toBuf v = v := Eq.trans rfl rfl
theorem ofBuf_main_call2_v0 (v : main_call2_v0.ty.Contents (Elt Ideal)) : (TRef.of (sig := sig) (T := ⟨S_, .f32⟩) main_call2_v0).ofBuf v = v := Eq.trans rfl rfl
theorem toBuf_main_call2_v1 (v : (⟨S100000, .f32⟩ : BufTy).Contents (Elt Ideal)) : (TRef.of (sig := sig) (T := ⟨S100000, .f32⟩) main_call2_v1).toBuf v = v := Eq.trans rfl rfl
theorem ofBuf_main_call2_v1 (v : main_call2_v1.ty.Contents (Elt Ideal)) : (TRef.of (sig := sig) (T := ⟨S100000, .f32⟩) main_call2_v1).ofBuf v = v := Eq.trans rfl rfl
theorem toBuf_main_v52 (v : (⟨S100000, .i1⟩ : BufTy).Contents (Elt Ideal)) : (TRef.of (sig := sig) (T := ⟨S100000, .i1⟩) main_v52).toBuf v = v := Eq.trans rfl rfl
theorem ofBuf_main_v52 (v : main_v52.ty.Contents (Elt Ideal)) : (TRef.of (sig := sig) (T := ⟨S100000, .i1⟩) main_v52).ofBuf v = v := Eq.trans rfl rfl
theorem toBuf_main_v53 (v : (⟨S100000, .f32⟩ : BufTy).Contents (Elt Ideal)) : (TRef.of (sig := sig) (T := ⟨S100000, .f32⟩) main_v53).toBuf v = v := Eq.trans rfl rfl
theorem ofBuf_main_v53 (v : main_v53.ty.Contents (Elt Ideal)) : (TRef.of (sig := sig) (T := ⟨S100000, .f32⟩) main_v53).ofBuf v = v := Eq.trans rfl rfl
theorem toBuf_main_v54 (v : (⟨S100000, .f32⟩ : BufTy).Contents (Elt Ideal)) : (TRef.of (sig := sig) (T := ⟨S100000, .f32⟩) main_v54).toBuf v = v := Eq.trans rfl rfl
theorem ofBuf_main_v54 (v : main_v54.ty.Contents (Elt Ideal)) : (TRef.of (sig := sig) (T := ⟨S100000, .f32⟩) main_v54).ofBuf v = v := Eq.trans rfl rfl
theorem toBuf_main_call3_cst (v : (⟨S_, .f32⟩ : BufTy).Contents (Elt Ideal)) : (TRef.of (sig := sig) (T := ⟨S_, .f32⟩) main_call3_cst).toBuf v = v := Eq.trans rfl rfl
theorem ofBuf_main_call3_cst (v : main_call3_cst.ty.Contents (Elt Ideal)) : (TRef.of (sig := sig) (T := ⟨S_, .f32⟩) main_call3_cst).ofBuf v = v := Eq.trans rfl rfl
theorem toBuf_main_v83 (v : (⟨S100000x40, .f32⟩ : BufTy).Contents (Elt Ideal)) : (TRef.of (sig := sig) (T := ⟨S100000x40, .f32⟩) main_v83).toBuf v = v := Eq.trans rfl rfl
theorem ofBuf_main_v83 (v : main_v83.ty.Contents (Elt Ideal)) : (TRef.of (sig := sig) (T := ⟨S100000x40, .f32⟩) main_v83).ofBuf v = v := Eq.trans rfl rfl
theorem toBuf_main_call3_v0 (v : (⟨S100000, .f32⟩ : BufTy).Contents (Elt Ideal)) : (TRef.of (sig := sig) (T := ⟨S100000, .f32⟩) main_call3_v0).toBuf v = v := Eq.trans rfl rfl
theorem ofBuf_main_call3_v0 (v : main_call3_v0.ty.Contents (Elt Ideal)) : (TRef.of (sig := sig) (T := ⟨S100000, .f32⟩) main_call3_v0).ofBuf v = v := Eq.trans rfl rfl
theorem toBuf_main_call3_cst_0 (v : (⟨S_, .f32⟩ : BufTy).Contents (Elt Ideal)) : (TRef.of (sig := sig) (T := ⟨S_, .f32⟩) main_call3_cst_0).toBuf v = v := Eq.trans rfl rfl
theorem ofBuf_main_call3_cst_0 (v : main_call3_cst_0.ty.Contents (Elt Ideal)) : (TRef.of (sig := sig) (T := ⟨S_, .f32⟩) main_call3_cst_0).ofBuf v = v := Eq.trans rfl rfl
theorem toBuf_main_call3_v1 (v : (⟨S100000, .f32⟩ : BufTy).Contents (Elt Ideal)) : (TRef.of (sig := sig) (T := ⟨S100000, .f32⟩) main_call3_v1).toBuf v = v := Eq.trans rfl rfl
theorem ofBuf_main_call3_v1 (v : main_call3_v1.ty.Contents (Elt Ideal)) : (TRef.of (sig := sig) (T := ⟨S100000, .f32⟩) main_call3_v1).ofBuf v = v := Eq.trans rfl rfl
theorem toBuf_main_call3_v2 (v : (⟨S100000, .f32⟩ : BufTy).Contents (Elt Ideal)) : (TRef.of (sig := sig) (T := ⟨S100000, .f32⟩) main_call3_v2).toBuf v = v := Eq.trans rfl rfl
theorem ofBuf_main_call3_v2 (v : main_call3_v2.ty.Contents (Elt Ideal)) : (TRef.of (sig := sig) (T := ⟨S100000, .f32⟩) main_call3_v2).ofBuf v = v := Eq.trans rfl rfl
theorem toBuf_main_call3_v3 (v : (⟨S100000x1, .f32⟩ : BufTy).Contents (Elt Ideal)) : (TRef.of (sig := sig) (T := ⟨S100000x1, .f32⟩) main_call3_v3).toBuf v = v := Eq.trans rfl rfl
theorem ofBuf_main_call3_v3 (v : main_call3_v3.ty.Contents (Elt Ideal)) : (TRef.of (sig := sig) (T := ⟨S100000x1, .f32⟩) main_call3_v3).ofBuf v = v := Eq.trans rfl rfl
theorem toBuf_main_call3_v4 (v : (⟨S100000x40, .f32⟩ : BufTy).Contents (Elt Ideal)) : (TRef.of (sig := sig) (T := ⟨S100000x40, .f32⟩) main_call3_v4).toBuf v = v := Eq.trans rfl rfl
theorem ofBuf_main_call3_v4 (v : main_call3_v4.ty.Contents (Elt Ideal)) : (TRef.of (sig := sig) (T := ⟨S100000x40, .f32⟩) main_call3_v4).ofBuf v = v := Eq.trans rfl rfl
theorem toBuf_main_call3_v5 (v : (⟨S100000x40, .f32⟩ : BufTy).Contents (Elt Ideal)) : (TRef.of (sig := sig) (T := ⟨S100000x40, .f32⟩) main_call3_v5).toBuf v = v := Eq.trans rfl rfl
theorem ofBuf_main_call3_v5 (v : main_call3_v5.ty.Contents (Elt Ideal)) : (TRef.of (sig := sig) (T := ⟨S100000x40, .f32⟩) main_call3_v5).ofBuf v = v := Eq.trans rfl rfl
theorem toBuf_main_call3_v6 (v : (⟨S100000x40, .f32⟩ : BufTy).Contents (Elt Ideal)) : (TRef.of (sig := sig) (T := ⟨S100000x40, .f32⟩) main_call3_v6).toBuf v = v := Eq.trans rfl rfl
theorem ofBuf_main_call3_v6 (v : main_call3_v6.ty.Contents (Elt Ideal)) : (TRef.of (sig := sig) (T := ⟨S100000x40, .f32⟩) main_call3_v6).ofBuf v = v := Eq.trans rfl rfl
theorem toBuf_main_call3_cst_1 (v : (⟨S_, .f32⟩ : BufTy).Contents (Elt Ideal)) : (TRef.of (sig := sig) (T := ⟨S_, .f32⟩) main_call3_cst_1).toBuf v = v := Eq.trans rfl rfl
theorem ofBuf_main_call3_cst_1 (v : main_call3_cst_1.ty.Contents (Elt Ideal)) : (TRef.of (sig := sig) (T := ⟨S_, .f32⟩) main_call3_cst_1).ofBuf v = v := Eq.trans rfl rfl
theorem toBuf_main_call3_v7 (v : (⟨S100000, .f32⟩ : BufTy).Contents (Elt Ideal)) : (TRef.of (sig := sig) (T := ⟨S100000, .f32⟩) main_call3_v7).toBuf v = v := Eq.trans rfl rfl
theorem ofBuf_main_call3_v7 (v : main_call3_v7.ty.Contents (Elt Ideal)) : (TRef.of (sig := sig) (T := ⟨S100000, .f32⟩) main_call3_v7).ofBuf v = v := Eq.trans rfl rfl
theorem toBuf_main_call3_v8 (v : (⟨S100000x1, .f32⟩ : BufTy).Contents (Elt Ideal)) : (TRef.of (sig := sig) (T := ⟨S100000x1, .f32⟩) main_call3_v8).toBuf v = v := Eq.trans rfl rfl
theorem ofBuf_main_call3_v8 (v : main_call3_v8.ty.Contents (Elt Ideal)) : (TRef.of (sig := sig) (T := ⟨S100000x1, .f32⟩) main_call3_v8).ofBuf v = v := Eq.trans rfl rfl
theorem toBuf_main_call3_v9 (v : (⟨S100000x1, .f32⟩ : BufTy).Contents (Elt Ideal)) : (TRef.of (sig := sig) (T := ⟨S100000x1, .f32⟩) main_call3_v9).toBuf v = v := Eq.trans rfl rfl
theorem ofBuf_main_call3_v9 (v : main_call3_v9.ty.Contents (Elt Ideal)) : (TRef.of (sig := sig) (T := ⟨S100000x1, .f32⟩) main_call3_v9).ofBuf v = v := Eq.trans rfl rfl
theorem toBuf_main_call3_v10 (v : (⟨S100000x40, .f32⟩ : BufTy).Contents (Elt Ideal)) : (TRef.of (sig := sig) (T := ⟨S100000x40, .f32⟩) main_call3_v10).toBuf v = v := Eq.trans rfl rfl
theorem ofBuf_main_call3_v10 (v : main_call3_v10.ty.Contents (Elt Ideal)) : (TRef.of (sig := sig) (T := ⟨S100000x40, .f32⟩) main_call3_v10).ofBuf v = v := Eq.trans rfl rfl
theorem toBuf_main_v84 (v : (⟨S100000x40, .f32⟩ : BufTy).Contents (Elt Ideal)) : (TRef.of (sig := sig) (T := ⟨S100000x40, .f32⟩) main_v84).toBuf v = v := Eq.trans rfl rfl
theorem ofBuf_main_v84 (v : main_v84.ty.Contents (Elt Ideal)) : (TRef.of (sig := sig) (T := ⟨S100000x40, .f32⟩) main_v84).ofBuf v = v := Eq.trans rfl rfl
end TypedReferences

section Stretches

variable (W : Valuation τ sig (Elt Ideal))

set_option maxHeartbeats 8000000 in
/-- The first stretch leaves the first aggregation. -/
theorem first_h : after (ops1 (F := Ideal)) W (Proc.devRef .tc main_v45)
    = aggregate128 (rowsOf (W (Proc.devRef .tc main_arg1))) (colsOf (W (Proc.devRef .tc main_arg1)))
        (edgeNorm (invSqrtRef (degree (rowsOf (W (Proc.devRef .tc main_arg1))) (weightsOf (W (Proc.devRef .tc main_arg2)))))
          (rowsOf (W (Proc.devRef .tc main_arg1))) (colsOf (W (Proc.devRef .tc main_arg1))) (weightsOf (W (Proc.devRef .tc main_arg2))))
        (Cert.KernelIdeal.FirstProduct.xw (W (Proc.devRef .tc main_arg0)) (W (Proc.devRef .tc main_arg3))) := by
  simp only [ops1]
  after_results_simp
  simp only [← withLoops_def]
  after_results_simp
  simp only [Cert.LibTRef.ofBuf_toBuf, Cert.LibTRef.toBuf_ofBuf, toBuf_main_cst_2, ofBuf_main_cst_2, toBuf_main_call0_v0, ofBuf_main_call0_v0, toBuf_main_call0_v1, ofBuf_main_call0_v1, toBuf_main_v14, ofBuf_main_v14, toBuf_main_v15, ofBuf_main_v15, toBuf_main_v16, ofBuf_main_v16, toBuf_main_call1_cst, ofBuf_main_call1_cst, toBuf_main_call1_v0, ofBuf_main_call1_v0, toBuf_main_v45, ofBuf_main_v45, toBuf_main_v46, ofBuf_main_v46, toBuf_main_cst_11, ofBuf_main_cst_11, toBuf_main_call2_v0, ofBuf_main_call2_v0, toBuf_main_call2_v1, ofBuf_main_call2_v1, toBuf_main_v52, ofBuf_main_v52, toBuf_main_v53, ofBuf_main_v53, toBuf_main_v54, ofBuf_main_v54, toBuf_main_call3_cst, ofBuf_main_call3_cst, toBuf_main_v83, ofBuf_main_v83, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v84, ofBuf_main_v84]
  rfl

set_option maxHeartbeats 8000000 in
theorem first_rows : after (ops1 (F := Ideal)) W (Proc.devRef .tc main_v3) = rowsOf (W (Proc.devRef .tc main_arg1)) := by
  simp only [ops1]
  after_results_simp
  simp only [← withLoops_def]
  after_results_simp
  rfl

set_option maxHeartbeats 8000000 in
theorem first_cols : after (ops1 (F := Ideal)) W (Proc.devRef .tc main_v6) = colsOf (W (Proc.devRef .tc main_arg1)) := by
  simp only [ops1]
  after_results_simp
  simp only [← withLoops_def]
  after_results_simp
  rfl

set_option maxHeartbeats 8000000 in
theorem first_weights : after (ops1 (F := Ideal)) W (Proc.devRef .tc main_v8) = weightsOf (W (Proc.devRef .tc main_arg2)) := by
  simp only [ops1]
  after_results_simp
  simp only [← withLoops_def]
  after_results_simp
  rfl

set_option maxHeartbeats 8000000 in
theorem first_arg4 : after (ops1 (F := Ideal)) W (Proc.devRef .tc main_arg4) = W (Proc.devRef .tc main_arg4) := by
  simp only [ops1]
  after_results_simp

set_option maxHeartbeats 8000000 in
/-- The second stretch leaves the second aggregation, from the first one and the rows, columns and weights. -/
theorem second_h : after (ops2 (F := Ideal)) W (Proc.devRef .tc main_v83)
    = aggregate40 (W (Proc.devRef .tc main_v3)) (W (Proc.devRef .tc main_v6))
        (edgeNorm (invSqrtRef (degree (W (Proc.devRef .tc main_v3)) (W (Proc.devRef .tc main_v8))))
          (W (Proc.devRef .tc main_v3)) (W (Proc.devRef .tc main_v6)) (W (Proc.devRef .tc main_v8)))
        (Cert.KernelIdeal.SecondProduct.hw (W (Proc.devRef .tc main_v45)) (W (Proc.devRef .tc main_arg4))) := by
  simp only [ops2]
  after_results_simp
  simp only [Cert.LibTRef.ofBuf_toBuf, Cert.LibTRef.toBuf_ofBuf, toBuf_main_cst_2, ofBuf_main_cst_2, toBuf_main_call0_v0, ofBuf_main_call0_v0, toBuf_main_call0_v1, ofBuf_main_call0_v1, toBuf_main_v14, ofBuf_main_v14, toBuf_main_v15, ofBuf_main_v15, toBuf_main_v16, ofBuf_main_v16, toBuf_main_call1_cst, ofBuf_main_call1_cst, toBuf_main_call1_v0, ofBuf_main_call1_v0, toBuf_main_v45, ofBuf_main_v45, toBuf_main_v46, ofBuf_main_v46, toBuf_main_cst_11, ofBuf_main_cst_11, toBuf_main_call2_v0, ofBuf_main_call2_v0, toBuf_main_call2_v1, ofBuf_main_call2_v1, toBuf_main_v52, ofBuf_main_v52, toBuf_main_v53, ofBuf_main_v53, toBuf_main_v54, ofBuf_main_v54, toBuf_main_call3_cst, ofBuf_main_call3_cst, toBuf_main_v83, ofBuf_main_v83, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v84, ofBuf_main_v84]
  rfl

set_option maxHeartbeats 8000000 in
/-- The third stretch is the row-wise log-softmax. -/
theorem third_h : after (ops3 (F := Ideal)) W (Proc.devRef .tc main_v84) = hostLogSoftmax (W (Proc.devRef .tc main_v83)) := by
  simp only [ops3]
  after_results_simp
  simp only [Cert.LibTRef.ofBuf_toBuf, Cert.LibTRef.toBuf_ofBuf, toBuf_main_cst_2, ofBuf_main_cst_2, toBuf_main_call0_v0, ofBuf_main_call0_v0, toBuf_main_call0_v1, ofBuf_main_call0_v1, toBuf_main_v14, ofBuf_main_v14, toBuf_main_v15, ofBuf_main_v15, toBuf_main_v16, ofBuf_main_v16, toBuf_main_call1_cst, ofBuf_main_call1_cst, toBuf_main_call1_v0, ofBuf_main_call1_v0, toBuf_main_v45, ofBuf_main_v45, toBuf_main_v46, ofBuf_main_v46, toBuf_main_cst_11, ofBuf_main_cst_11, toBuf_main_call2_v0, ofBuf_main_call2_v0, toBuf_main_call2_v1, ofBuf_main_call2_v1, toBuf_main_v52, ofBuf_main_v52, toBuf_main_v53, ofBuf_main_v53, toBuf_main_v54, ofBuf_main_v54, toBuf_main_call3_cst, ofBuf_main_call3_cst, toBuf_main_v83, ofBuf_main_v83, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v84, ofBuf_main_v84]
  rfl

/-- The whole line: the result buffer after all 126 operations. -/
theorem result_eq : after (ops (F := Ideal)) W (Proc.devRef .tc main_v84)
    = spec (W (Proc.devRef .tc main_arg0)) (W (Proc.devRef .tc main_arg1)) (W (Proc.devRef .tc main_arg2))
        (W (Proc.devRef .tc main_arg3)) (W (Proc.devRef .tc main_arg4)) := by
  rw [ops_split, Cert.LibAfter.after_append, Cert.LibAfter.after_append, third_h, second_h, first_h, first_rows, first_cols,
    first_weights, first_arg4]
  rfl

end Stretches

end Cert.ReferenceIdeal.RefValue

end
-- ==== Proof.RefRun.lean ====
/-
  The idealized reference program's run.

  The reference is a straight line of host operations on buffers that outlive it, so every weakly fair execution
  terminates with each buffer at the fold of the operations' results over the launch contents. Read at the result
  buffer that fold is the reference's function of its arguments; read at an argument's buffer it is the argument as
  launched, since no operation writes an argument.
-/
import proofs.«134297_j80453327389046_2_alg».proof.Proof.RefValue

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Staged

section Kept

variable (W : Valuation τ sig (Elt Ideal))

set_option maxHeartbeats 16000000 in
theorem kept_arg0 : after (ops (F := Ideal)) W (Proc.devRef .tc main_arg0) = W (Proc.devRef .tc main_arg0) := by
  simp only [ops]; after_results_simp
set_option maxHeartbeats 16000000 in
theorem kept_arg1 : after (ops (F := Ideal)) W (Proc.devRef .tc main_arg1) = W (Proc.devRef .tc main_arg1) := by
  simp only [ops]; after_results_simp
set_option maxHeartbeats 16000000 in
theorem kept_arg2 : after (ops (F := Ideal)) W (Proc.devRef .tc main_arg2) = W (Proc.devRef .tc main_arg2) := by
  simp only [ops]; after_results_simp
set_option maxHeartbeats 16000000 in
theorem kept_arg3 : after (ops (F := Ideal)) W (Proc.devRef .tc main_arg3) = W (Proc.devRef .tc main_arg3) := by
  simp only [ops]; after_results_simp
set_option maxHeartbeats 16000000 in
theorem kept_arg4 : after (ops (F := Ideal)) W (Proc.devRef .tc main_arg4) = W (Proc.devRef .tc main_arg4) := by
  simp only [ops]; after_results_simp

end Kept

/-- From any memory with zero counters every weakly fair execution of the reference terminates with its result at the
    reference's function of the arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
          = spec (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v84).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c))⟩)
    (run_seq scopedRefs_eq scopedSems_eq defs main (fun _ => ops) main_eq (fun _ => ops_sub) m ρ)

end Cert.ReferenceIdeal.RefValue

end
-- ==== Proof.lean ====
/-
  A two-layer graph convolution with a log-softmax head: the kernel program against its jnp reference, on the extended reals.

  Both programs add a self-loop to every node, weight every edge by dinv[row] · w · dinv[col] (dinv the inverse square
  root of the weighted degree where that is positive, zero elsewhere), and twice multiply the features by a weight matrix
  and aggregate along the edges, with a maximum with zero between the layers and a row-wise log-softmax at the end. The
  irregular steps (concatenations, gathers, scatter-adds) are the same host operations in both. The kernel program differs
  in three places, none of which changes a value on the extended reals:
    * its two matrix products run as launches over twenty blocks of 5000 rows, each block one product on the matrix unit
      into a zero accumulator after a change of format that is the identity here, the blocks tiling the output: the whole
      product, entry (r, q) the sum over k of lhs(r, k) · rhs(k, q) on both sides;
    * its log-softmax runs as a launch over the same row blocks, each row's maximum and sum taken by lane reductions; the
      reference takes one more maximum with −∞, which changes nothing; both read (f q − M) − log Σₖ exp (f k − M) on the row;
    * it takes the inverse square root of the degree with the non-positive degrees first replaced by one; under the same
      selection on "degree positive" the replaced entries are never used.
  So the kernel's result, read off the last boundary of its ten segments, and the reference's, read off its one line of
  host operations, are one function of the arguments; no finiteness of the inputs is used.
  The frames: the two kernel programs' are the generated ones; the reference's is its run with the result dropped. The
  ideal pass rewrote no operation, so `preserves` is trivial.
-/
import proofs.«134297_j80453327389046_2_alg».proof.Defs
import proofs.«134297_j80453327389046_2_alg».proof.Proof.Gen.Kernel
import proofs.«134297_j80453327389046_2_alg».proof.Proof.Gen.Kernel.Skeleton
import proofs.«134297_j80453327389046_2_alg».proof.Proof.Gen.Kernel.Launch
import proofs.«134297_j80453327389046_2_alg».proof.Proof.Gen.Kernel.Points
import proofs.«134297_j80453327389046_2_alg».proof.Proof.Gen.Kernel.Frame
import proofs.«134297_j80453327389046_2_alg».proof.Proof.Gen.KernelIdeal
import proofs.«134297_j80453327389046_2_alg».proof.Proof.Gen.KernelIdeal.Skeleton
import proofs.«134297_j80453327389046_2_alg».proof.Proof.Gen.KernelIdeal.Launch
import proofs.«134297_j80453327389046_2_alg».proof.Proof.Gen.KernelIdeal.Points
import proofs.«134297_j80453327389046_2_alg».proof.Proof.Gen.KernelIdeal.Frame
import proofs.«134297_j80453327389046_2_alg».proof.Proof.Gen.ReferenceIdeal
import proofs.«134297_j80453327389046_2_alg».proof.Proof.Gen.Pre_finite_inputs
import proofs.«134297_j80453327389046_2_alg».proof.Proof.KernelRun
import proofs.«134297_j80453327389046_2_alg».proof.Proof.KernelValue
import proofs.«134297_j80453327389046_2_alg».proof.Proof.RefRun
import Idealize.ShloMosaic.Adequacy
import Idealize.ShloMosaic.Init

noncomputable section

namespace Cert.Proof

open Idealize.ShloMosaic Idealize.ShloMosaic.TcCoe Idealize.SL.Sem

/-- The two programs' results are one function of the arguments: they differ only in how the inverse square root of
    the degree is spelt. -/
theorem specs_agree (x : FVec Ideal Cert.KernelIdeal.S100000x128 .f32) (ei : IVec Cert.KernelIdeal.S2x1600000 32)
    (ew : FVec Ideal Cert.KernelIdeal.S1600000 .f32) (w1 : FVec Ideal Cert.KernelIdeal.S128x128 .f32)
    (w2 : FVec Ideal Cert.KernelIdeal.S128x40 .f32) :
    Cert.KernelIdeal.Value.spec x ei ew w1 w2 = Cert.ReferenceIdeal.RefValue.spec x ei ew w1 w2 := by
  unfold Cert.KernelIdeal.Value.spec Cert.ReferenceIdeal.RefValue.spec
  rw [Cert.Gcn.invSqrtKer_eq]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories agreeing on the arguments both idealized programs run, and both end with the common function of the
    arguments in their result buffers. -/
theorem algebraic : Cert.algebraic_KernelIdeal_ReferenceIdeal := by
  intro m ρ m' ρ' _ hagree
  refine ⟨fun c => Cert.KernelIdeal.Value.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩)
      (Cert.KernelIdeal.Ends.ends (F := Ideal) m ρ)
    · exact (Cert.KernelIdeal.Ends.result_of_ends m ρ (s := r.2) h c).trans (Cert.KernelIdeal.Value.result_eq m ρ c)
    · exact (h c _ (Cert.KernelIdeal.Gen.mem_uc Cert.KernelIdeal.main_arg0 (by decide))).trans
        (Cert.KernelIdeal.Gen.W10_main_arg0 m ρ c)
    · exact (h c _ (Cert.KernelIdeal.Gen.mem_uc Cert.KernelIdeal.main_arg1 (by decide))).trans
        (Cert.KernelIdeal.Gen.W10_main_arg1 m ρ c)
    · exact (h c _ (Cert.KernelIdeal.Gen.mem_uc Cert.KernelIdeal.main_arg2 (by decide))).trans
        (Cert.KernelIdeal.Gen.W10_main_arg2 m ρ c)
    · exact (h c _ (Cert.KernelIdeal.Gen.mem_uc Cert.KernelIdeal.main_arg3 (by decide))).trans
        (Cert.KernelIdeal.Gen.W10_main_arg3 m ρ c)
    · exact (h c _ (Cert.KernelIdeal.Gen.mem_uc Cert.KernelIdeal.main_arg4 (by decide))).trans
        (Cert.KernelIdeal.Gen.W10_main_arg4 m ρ c)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2]
    exact (specs_agree _ _ _ _ _).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
